-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x50x50 : Shape := ⟨4, ![16, 512, 50, 50]⟩
abbrev S_ : Shape := ⟨0, ![]⟩

class Facts : Prop where
  bcast_S_S16x512x50x50 : S_.BroadcastsInDim S16x512x50x50 (![] : Fin 0 → Fin S16x512x50x50.rank)
  reducesTo_S16x512x50x50_S_d0_1_2_3 : S16x512x50x50.ReducesTo [0, 1, 2, 3] S_
  h_S_ : 0 < S_.numel

variable [Facts]

def fn {F : FTy → Type} [FloatOps F] (main_arg0 : FVec F S16x512x50x50 .f32) (main_arg1 : FVec F S16x512x50x50 .f32) : IVec S_ 1 :=
  let main_v0 : FVec F S16x512x50x50 .f32 := Host.absf main_arg0
  let main_cst : FVec F S_ .f32 := constant S_ .f32 0x7F800000#32
  let main_v1 : FVec F S16x512x50x50 .f32 := broadcastInDim S16x512x50x50 ![] bcast_S_S16x512x50x50 main_cst
  let main_v2 : IVec S16x512x50x50 1 := cmpf .olt main_v0 main_v1
  let main_c : IVec S_ 1 := constantI S_ 1 1#1
  let main_v3 : IVec S_ 1 := (fun x v => Host.reduce IntOp.andi x v reducesTo_S16x512x50x50_S_d0_1_2_3 h_S_) main_v2 main_c
  let main_v4 : FVec F S16x512x50x50 .f32 := Host.absf main_arg1
  let main_cst_0 : FVec F S_ .f32 := constant S_ .f32 0x7F800000#32
  let main_v5 : FVec F S16x512x50x50 .f32 := broadcastInDim S16x512x50x50 ![] bcast_S_S16x512x50x50 main_cst_0
  let main_v6 : IVec S16x512x50x50 1 := cmpf .olt main_v4 main_v5
  let main_c_1 : IVec S_ 1 := constantI S_ 1 1#1
  let main_v7 : IVec S_ 1 := (fun x v => Host.reduce IntOp.andi x v reducesTo_S16x512x50x50_S_d0_1_2_3 h_S_) main_v6 main_c_1
  let main_v8 : IVec S_ 1 := andi main_v3 main_v7
  main_v8
-- ==== Kernel.lean ====
abbrev S16x512x50x50 : Shape := ⟨4, ![16, 512, 50, 50]⟩
abbrev S8192x25x100 : Shape := ⟨3, ![8192, 25, 100]⟩
abbrev S2x8x128 : Shape := ⟨3, ![2, 8, 128]⟩
abbrev S512x25x100 : Shape := ⟨3, ![512, 25, 100]⟩
abbrev S1x8x128 : Shape := ⟨3, ![1, 8, 128]⟩
abbrev S512x25 : Shape := ⟨2, ![512, 25]⟩
abbrev S512 : Shape := ⟨1, ![512]⟩
abbrev S512x1 : Shape := ⟨2, ![512, 1]⟩
abbrev S1 : Shape := ⟨1, ![1]⟩
abbrev S1x1 : Shape := ⟨2, ![1, 1]⟩
abbrev S8x128 : Shape := ⟨2, ![8, 128]⟩
abbrev S2x1x1 : Shape := ⟨3, ![2, 1, 1]⟩
abbrev S2 : Shape := ⟨1, ![2]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S16x512x50x50, .f32⟩
  | .hbm, ⟨1, _⟩ => ⟨S16x512x50x50, .f32⟩
  | .hbm, ⟨2, _⟩ => ⟨S8192x25x100, .f32⟩
  | .hbm, ⟨3, _⟩ => ⟨S8192x25x100, .f32⟩
  | .hbm, ⟨4, _⟩ => ⟨S2x8x128, .f32⟩
  | .hbm, ⟨5, _⟩ => ⟨S2x1x1, .f32⟩
  | .hbm, ⟨6, _⟩ => ⟨S2, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x25x100, .f32⟩
  | .local _ .vmem, ⟨1, _⟩ => ⟨S512x25x100, .f32⟩
  | .local _ .vmem, ⟨2, _⟩ => ⟨S512x25x100, .f32⟩
  | .local _ .vmem, ⟨3, _⟩ => ⟨S512x25x100, .f32⟩
  | .local _ .vmem, ⟨4, _⟩ => ⟨S1x8x128, .f32⟩
  | .local _ .vmem, ⟨5, _⟩ => ⟨S1x8x128, .f32⟩
  | _, _ => ⟨S16x512x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x25x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x25x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x512x50x50_S8192x25x100 : S16x512x50x50.ShapeCasts S8192x25x100
  inb_S1x8x128_S1x8x128_0_0_0 : ∀ a, (![0, 0, 0] : Fin 3 → Nat) a + S1x8x128.size a ≤ S1x8x128.size a
  h_S1x8x128 : 0 < S1x8x128.numel
  inb_S512x25x100_S512x25x100_0_0_0 : ∀ a, (![0, 0, 0] : Fin 3 → Nat) a + S512x25x100.size a ≤ S512x25x100.size a
  h_S512x25x100 : 0 < S512x25x100.numel
  shapeCasts_S512x25x100_S512x25x100 : S512x25x100.ShapeCasts S512x25x100
  reduces_S512x25x100_S512x25 : S512x25x100.Reduces [2] S512x25
  reduces_S512x25_S512 : S512x25.Reduces [1] S512
  shapeCasts_S512_S512x1 : S512.ShapeCasts S512x1
  reduces_S512x1_S1 : S512x1.Reduces [0] S1
  shapeCasts_S1_S1x1 : S1.ShapeCasts S1x1
  inpos_S1x1_p0_0 : ∀ a, (![0, 0] : Fin 2 → Nat) a < S1x1.size a
  iota_S8x128_d0_w32 : S8x128.Iotas .tc 32 [0]
  iota_S8x128_d1_w32 : S8x128.Iotas .tc 32 [1]
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x25x100.size a ≤ S8192x25x100.size a
  hwx0_0 : ∀ i : grid0.Coords, EltTy.bits .f32 = 32 ∨ (Rect.block (s := S8192x25x100) S512x25x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x25x100.size a ≤ S8192x25x100.size a
  hwx0_1 : ∀ i : grid0.Coords, EltTy.bits .f32 = 32 ∨ (Rect.block (s := S8192x25x100) S512x25x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S512x25x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x25x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x50x50 : Shape := ⟨4, ![16, 512, 50, 50]⟩
abbrev S8192x25x100 : Shape := ⟨3, ![8192, 25, 100]⟩
abbrev S_ : Shape := ⟨0, ![]⟩
abbrev S8192x25 : Shape := ⟨2, ![8192, 25]⟩
abbrev S8192 : Shape := ⟨1, ![8192]⟩

abbrev nBuf : Space → Nat
  | .hbm => 23
  | .vmem => 0
  | .smem => 0
  | _ => 0

abbrev bufTy : (tb : Table) → Fin (tcTables nBuf tb) → BufTy
  | .hbm, ⟨0, _⟩ => ⟨S16x512x50x50, .f32⟩
  | .hbm, ⟨1, _⟩ => ⟨S16x512x50x50, .f32⟩
  | .hbm, ⟨2, _⟩ => ⟨S8192x25x100, .f32⟩
  | .hbm, ⟨3, _⟩ => ⟨S8192x25x100, .f32⟩
  | .hbm, ⟨4, _⟩ => ⟨S_, .f32⟩
  | .hbm, ⟨5, _⟩ => ⟨S8192x25, .f32⟩
  | .hbm, ⟨6, _⟩ => ⟨S_, .f32⟩
  | .hbm, ⟨7, _⟩ => ⟨S8192x25, .f32⟩
  | .hbm, ⟨8, _⟩ => ⟨S8192x25, .f32⟩
  | .hbm, ⟨9, _⟩ => ⟨S_, .f32⟩
  | .hbm, ⟨10, _⟩ => ⟨S8192x25, .f32⟩
  | .hbm, ⟨11, _⟩ => ⟨S_, .f32⟩
  | .hbm, ⟨12, _⟩ => ⟨S8192x25, .f32⟩
  | .hbm, ⟨13, _⟩ => ⟨S8192x25, .f32⟩
  | .hbm, ⟨14, _⟩ => ⟨S8192x25, .f32⟩
  | .hbm, ⟨15, _⟩ => ⟨S8192x25, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | _, _ => ⟨S16x512x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  shapeCasts_S16x512x50x50_S8192x25x100 : S16x512x50x50.ShapeCasts S8192x25x100
  reducesTo_S8192x25x100_S8192x25_d2 : S8192x25x100.ReducesTo [2] S8192x25
  h_S_ : 0 < S_.numel
  bcast_S_S8192x25 : S_.BroadcastsInDim S8192x25 (![] : Fin 0 → Fin S8192x25.rank)
  reducesTo_S8192x25_S8192_d1 : S8192x25.ReducesTo [1] S8192
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.LibOuterSum.lean ====
/-
  The two "keepdims" broadcasts of a pairwise table: for a matrix v of shape [A, B],
    v[:, :, None] broadcast to [A, B, C]  — entry (a, b, c) is v (a, b) — and
    v[:, None, :] broadcast to [A, C, B]  — entry (a, c, b) is v (a, b).
  A kernel writes each as a `vector.shape_cast` inserting the unit axis followed by a `vector.broadcast`; their sum is
  the outer sum s(a, i) + t(a, j) that a pairwise squared distance starts from. Generic in the extents.
  Also the column forms a `keepdims=True` reduction leaves behind: a vector [a] as a column [a, 1], a column [a, 1] as a
  row [1, a], and a column [a, 1] broadcast along its unit axis to [a, b].
-/
import Idealize.ShloMosaic.Lib.Pipeline.Value
import Idealize.ShloMosaic.Lib.ValueIdx

noncomputable section

namespace Cert.LibOuterSum

open Idealize.ShloMosaic Idealize.ShloMosaic.ValueIdx

variable {α : Type}

/-- `v[:, :, None]` broadcast along a new trailing axis. -/
theorem bcast_trailing_apply {A B C : Nat} (v : (⟨2, ![A, B]⟩ : Shape).Idx → α)
    (hc : (⟨2, ![A, B]⟩ : Shape).ShapeCasts ⟨3, ![A, B, 1]⟩)
    (hb : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v hc) hb (ix3 a b c) = v (ix2 a b) := by
  rw [broadcastTo_apply _ hb (ix3 a b c) (ix3 a b (⟨0, Nat.one_pos⟩ : Fin 1)) (fun d => by
    match d with
    | ⟨0, _⟩ =>
      show a.val = if A = 1 then 0 else a.val
      split_ifs with h1
      · have := a.isLt; omega
      · rfl
    | ⟨1, _⟩ =>
      show b.val = if B = 1 then 0 else b.val
      split_ifs with h1
      · have := b.isLt; omega
      · rfl
    | ⟨2, _⟩ =>
      show (0 : Nat) = if (1 : Nat) = 1 then 0 else c.val
      rfl)]
  exact shapeCast_apply v hc _ (ix2 a b) (by
    rw [Shape.rowMajor_val_two, Shape.rowMajor_val_three]
    show a.val * B + b.val = (a.val * B + b.val) * 1 + 0
    ring)

/-- `v[:, None, :]` broadcast along a new middle axis. -/
theorem bcast_middle_apply {A B C : Nat} (v : (⟨2, ![A, B]⟩ : Shape).Idx → α)
    (hc : (⟨2, ![A, B]⟩ : Shape).ShapeCasts ⟨3, ![A, 1, B]⟩)
    (hb : (⟨3, ![A, 1, B]⟩ : Shape).Broadcasts ⟨3, ![A, C, B]⟩) (a : Fin A) (c : Fin C) (b : Fin B) :
    broadcastTo ⟨3, ![A, C, B]⟩ (shapeCast ⟨3, ![A, 1, B]⟩ v hc) hb (ix3 a c b) = v (ix2 a b) := by
  rw [broadcastTo_apply _ hb (ix3 a c b) (ix3 a (⟨0, Nat.one_pos⟩ : Fin 1) b) (fun d => by
    match d with
    | ⟨0, _⟩ =>
      show a.val = if A = 1 then 0 else a.val
      split_ifs with h1
      · have := a.isLt; omega
      · rfl
    | ⟨1, _⟩ =>
      show (0 : Nat) = if (1 : Nat) = 1 then 0 else c.val
      rfl
    | ⟨2, _⟩ =>
      show b.val = if B = 1 then 0 else b.val
      split_ifs with h1
      · have := b.isLt; omega
      · rfl)]
  exact shapeCast_apply v hc _ (ix2 a b) (by
    rw [Shape.rowMajor_val_two, Shape.rowMajor_val_three]
    show a.val * B + b.val = (a.val * 1 + 0) * B + b.val
    ring)

/-- A vector `[a]` cast to a column `[a, 1]`: entry (i, u) is the vector's entry i. -/
theorem col_of_vec_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]`: entry (u, i) is the column's entry (i, 0). -/
theorem row_of_col_apply {a : Nat} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (⟨0, Nat.one_pos⟩ : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]`: entry (i, j) is the column's entry (i, 0). -/
theorem bcast_col_apply {a b : Nat} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (⟨0, Nat.one_pos⟩ : Fin 1)) :=
  broadcastTo_apply x h (ix2 i j) (ix2 i (⟨0, Nat.one_pos⟩ : Fin 1)) (fun d => by
    match d with
    | ⟨0, _⟩ =>
      show i.val = if a = 1 then 0 else i.val
      split_ifs with h1
      · have := i.isLt; omega
      · rfl
    | ⟨1, _⟩ =>
      show (0 : Nat) = if (1 : Nat) = 1 then 0 else j.val
      rfl)

end Cert.LibOuterSum

end
-- ==== Proof.LibRowReduce.lean ====
/-
  Reductions over one axis of rank-2 and rank-3 arrays of extended reals, read at an index as a sum (or a maximum) over
  that axis's coordinate, for arrays of any extents; and a per-row statistic (a row's maximum, a row's sum) laid out as a
  column and repeated along the row, read at an entry. These are the layout steps of a row-wise softmax.
-/
import Idealize.ShloMosaic.PureOps.Ideal.Laws
import Idealize.ShloMosaic.Lib.ValueIdx
import Idealize.ShloMosaic.Lib.Pipeline.Value
import proofs.«112659_j23021024706837_2_alg».proof.Proof.LibOuterSum

noncomputable section

namespace Cert.LibRowReduce

open Idealize.ShloMosaic Idealize.ShloMosaic.ValueIdx

/-- The f32 word `0xFF800000` is `-∞`. -/
theorem ofBits_neg_inf_f32 : Ideal.ofBits .f32 0xFF800000#32 = (⊥ : EReal) := by
  simp [Ideal.ofBits, Ideal.ieee]

/-- Summing a rank-3 array over its last axis: entry (a, b) is the sum over c of the entries (a, b, c). -/
theorem sum_last3 {A B C : Nat} (v : FVec Ideal ⟨3, ![A, B, C]⟩ .f32)
    (h : (⟨3, ![A, B, C]⟩ : Shape).Reduces [2] ⟨2, ![A, B]⟩) (hφ : FKind.Formats FTy.f32)
    (hacc : (0x00000000#32 : BitVec 32) = 0x00000000#32) (a : Fin A) (b : Fin B) :
    multiReduction .add [2] ⟨2, ![A, B]⟩ v 0x00000000#32 h hφ hacc (ix2 a b) = ∑ k : Fin C, v (ix3 a b k) := by
  refine (Ideal.multiReduction_add_single v 0x00000000#32 h hφ hacc (ix2 a b)).trans ?_
  refine Finset.sum_congr rfl fun k _ => congrArg v ?_
  funext c
  apply Fin.ext
  match c with
  | ⟨0, _⟩ => rfl
  | ⟨1, _⟩ => rfl
  | ⟨2, _⟩ => rfl

/-- Summing a rank-3 array over its middle axis: entry (a, c) is the sum over b of the entries (a, b, c). -/
theorem sum_mid3 {A B C : Nat} (v : FVec Ideal ⟨3, ![A, B, C]⟩ .f32)
    (h : (⟨3, ![A, B, C]⟩ : Shape).Reduces [1] ⟨2, ![A, C]⟩) (hφ : FKind.Formats FTy.f32)
    (hacc : (0x00000000#32 : BitVec 32) = 0x00000000#32) (a : Fin A) (c : Fin C) :
    multiReduction .add [1] ⟨2, ![A, C]⟩ v 0x00000000#32 h hφ hacc (ix2 a c) = ∑ k : Fin B, v (ix3 a k c) := by
  refine (Ideal.multiReduction_add_single v 0x00000000#32 h hφ hacc (ix2 a c)).trans ?_
  refine Finset.sum_congr rfl fun k _ => congrArg v ?_
  funext d
  apply Fin.ext
  match d with
  | ⟨0, _⟩ => rfl
  | ⟨1, _⟩ => rfl
  | ⟨2, _⟩ => rfl

/-- Summing a matrix along its rows: entry a is the sum over b of the entries (a, b). -/
theorem sum_row2 {A B : Nat} (v : FVec Ideal ⟨2, ![A, B]⟩ .f32)
    (h : (⟨2, ![A, B]⟩ : Shape).Reduces [1] ⟨1, ![A]⟩) (hφ : FKind.Formats FTy.f32)
    (hacc : (0x00000000#32 : BitVec 32) = 0x00000000#32) (a : Fin A) :
    multiReduction .add [1] ⟨1, ![A]⟩ v 0x00000000#32 h hφ hacc (ix1 a) = ∑ k : Fin B, v (ix2 a k) := by
  refine (Ideal.multiReduction_add_single v 0x00000000#32 h hφ hacc (ix1 a)).trans ?_
  refine Finset.sum_congr rfl fun k _ => congrArg v ?_
  funext d
  apply Fin.ext
  match d with
  | ⟨0, _⟩ => rfl
  | ⟨1, _⟩ => rfl

/-- The maximum along the rows of a matrix, from `-∞`: entry a is the greatest of `-∞` and the entries (a, b). -/
theorem max_row2 {A B : Nat} (v : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32) (a : Fin A) :
    multiReduction .maximumf [1] ⟨1, ![A]⟩ v 0xFF800000#32 h hφ hacc (ix1 a)
      = (Finset.univ : Finset (Fin B)).fold max (⊥ : EReal) (fun k => v (ix2 a k)) := by
  refine (Ideal.multiReduction_maximumf_single v 0xFF800000#32 h hφ hacc (ix1 a)).trans ?_
  show (Finset.univ : Finset (Fin B)).fold max (Ideal.ofBits .f32 0xFF800000#32) _ = _
  rw [ofBits_neg_inf_f32]
  refine congrArg (fun f => (Finset.univ : Finset (Fin B)).fold max (⊥ : EReal) f) ?_
  funext k
  refine congrArg v ?_
  funext d
  apply Fin.ext
  match d with
  | ⟨0, _⟩ => rfl
  | ⟨1, _⟩ => rfl

/-- A per-row statistic `[A]` laid out as a column `[A, 1]` and repeated along the row to `[A, B]`: entry (a, b) is the
    statistic of row a. -/
theorem stat_bcast_apply {α : Type} {A B : Nat} (x : (⟨1, ![A]⟩ : Shape).Idx → α)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ x hc) hb (ix2 a b) = x (ix1 a) := by
  rw [Cert.LibOuterSum.bcast_col_apply, Cert.LibOuterSum.col_of_vec_apply]

end Cert.LibRowReduce

end
-- ==== Proof.TileValue.lean ====
/-
  One grid point's arithmetic at the extended reals. The body takes two [512, 25, 100] blocks, sums each over its
  last axis (the 100 entries of a chunk), squares the difference of the two chunk sums, and adds the 512·25 squares
  up to one number, the tile's total. It then adds that number to entry (0, 0) of the [8, 128] accumulator block and
  leaves every other entry alone. Only entry (0, 0, 0) of the accumulator block is ever read by the program's tail,
  so that is the entry read here: it grows by the tile's total.
-/
import proofs.«112659_j23021024706837_2_alg».proof.Proof.Gen.KernelIdeal.Skeleton
import proofs.«112659_j23021024706837_2_alg».proof.Proof.LibRowReduce
import Idealize.ShloMosaic.Lib.ValueIdx
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx

/-- The square of the difference of the two chunk sums at row `r`, chunk `c` of a pair of blocks. -/
def sqDiff (x0 x1 : Vec Ideal S512x25x100 .f32) (r : Fin 512) (c : Fin 25) : EReal :=
  ((∑ k : Fin 100, x0 (ix3 r c k)) - ∑ k : Fin 100, x1 (ix3 r c k))
    * ((∑ k : Fin 100, x0 (ix3 r c k)) - ∑ k : Fin 100, x1 (ix3 r c k))

/-- The tile's total: the squares summed over the 25 chunks of each row, then over the 512 rows. -/
def tileTotal (x0 x1 : Vec Ideal S512x25x100 .f32) : EReal :=
  ∑ r : Fin 512, ∑ c : Fin 25, sqDiff x0 x1 r c

/-- Summing a one-column matrix [A, 1] down its column: the one entry is the sum of the column. -/
theorem sum_col1 {A : Nat} (v : FVec Ideal ⟨2, ![A, 1]⟩ .f32)
    (h : (⟨2, ![A, 1]⟩ : Shape).Reduces [0] ⟨1, ![1]⟩) (hφ : FKind.Formats FTy.f32)
    (hacc : (0x00000000#32 : BitVec 32) = 0x00000000#32) (u : Fin 1) :
    multiReduction .add [0] ⟨1, ![1]⟩ v 0x00000000#32 h hφ hacc (ix1 u) = ∑ r : Fin A, v (ix2 r u) := by
  refine (Ideal.multiReduction_add_single v 0x00000000#32 h hφ hacc (ix1 u)).trans ?_
  refine Finset.sum_congr rfl fun k _ => congrArg v ?_
  funext d
  apply Fin.ext
  match d with
  | ⟨0, _⟩ => rfl
  | ⟨1, _⟩ => rfl

/-- A block's chunk sums, as the body computes them: the (trivial) shape cast, then the sum over the last axis. -/
def chunkSums (x : Vec Ideal S512x25x100 .f32) : FVec Ideal S512x25 .f32 :=
  multiReduction .add [2] S512x25 (shapeCast S512x25x100 x shapeCasts_S512x25x100_S512x25x100) 0x00000000#32
    reduces_S512x25x100_S512x25 (.inl rfl) rfl

theorem chunkSums_apply (x : Vec Ideal S512x25x100 .f32) (r : Fin 512) (c : Fin 25) :
    chunkSums x (ix2 r c) = ∑ k : Fin 100, x (ix3 r c k) := by
  unfold chunkSums
  rw [shapeCast_self]
  exact Cert.LibRowReduce.sum_last3 x _ _ _ r c

/-- The number the body extracts: squares of chunk-sum differences, summed along rows, laid out as a column, summed
    down the column, and the one entry taken out. -/
def bodyTotal (x0 x1 : Vec Ideal S512x25x100 .f32) : EReal :=
  extractAt ![0, 0]
    (shapeCast S1x1
      (multiReduction .add [0] S1
        (shapeCast S512x1
          (multiReduction .add [1] S512
            (mulf (subf (chunkSums x0) (chunkSums x1)) (subf (chunkSums x0) (chunkSums x1)))
            0x00000000#32 reduces_S512x25_S512 (.inl rfl) rfl)
          shapeCasts_S512_S512x1)
        0x00000000#32 reduces_S512x1_S1 (.inl rfl) rfl)
      shapeCasts_S1_S1x1)
    inpos_S1x1_p0_0

/-- It is the tile's total. -/
theorem bodyTotal_eq (x0 x1 : Vec Ideal S512x25x100 .f32) : bodyTotal x0 x1 = tileTotal x0 x1 := by
  unfold bodyTotal extractAt
  refine (shapeCast_apply _ shapeCasts_S1_S1x1 _ (ix1 0) ?_).trans ?_
  · rw [Shape.rowMajor_val_one, Shape.rowMajor_val_two]; rfl
  refine (sum_col1 _ _ _ _ 0).trans ?_
  unfold tileTotal
  refine Finset.sum_congr rfl fun r _ => ?_
  refine (Cert.LibOuterSum.col_of_vec_apply _ shapeCasts_S512_S512x1 r 0).trans ?_
  refine (Cert.LibRowReduce.sum_row2 _ _ _ _ r).trans ?_
  refine Finset.sum_congr rfl fun c _ => ?_
  show (chunkSums x0 (ix2 r c) - chunkSums x1 (ix2 r c)) * (chunkSums x0 (ix2 r c) - chunkSums x1 (ix2 r c)) = _
  rw [chunkSums_apply, chunkSums_apply]
  rfl

/-- The mask that singles out entry (0, 0) of an [8, 128] block: row number 0 and column number 0. -/
def originMask : IVec S8x128 1 :=
  andi (cmpi .eq (iota .tc S8x128 32 [0] iota_S8x128_d0_w32) (broadcast S8x128 0#32))
    (cmpi .eq (iota .tc S8x128 32 [1] iota_S8x128_d1_w32) (broadcast S8x128 0#32))

theorem originMask_origin : originMask (ix2 0 0) = 1#1 := by
  unfold originMask andi cmpi
  rw [iota_single_apply, iota_single_apply]
  rfl

/-- The stored block, in this file's words. -/
theorem pay2_eq (x0 x1 : Vec Ideal S512x25x100 .f32) (acc : Vec Ideal S1x8x128 .f32) :
    k0_pay2 (F := Ideal) x0 x1 acc
      = shapeCast S1x8x128
          (addf (shapeCast S8x128 acc shapeCasts_S1x8x128_S8x128)
            (select originMask (broadcast S8x128 (bodyTotal x0 x1))
              (broadcast S8x128 (FloatOps.ofBits .f32 0x00000000#32))))
          shapeCasts_S8x128_S1x8x128 := rfl

/-- Entry (0, 0, 0) of the stored block is the accumulator's entry (0, 0, 0) plus the tile's total. -/
theorem pay2_origin (x0 x1 : Vec Ideal S512x25x100 .f32) (acc : Vec Ideal S1x8x128 .f32) :
    k0_pay2 (F := Ideal) x0 x1 acc (ix3 0 0 0) = acc (ix3 0 0 0) + tileTotal x0 x1 := by
  rw [pay2_eq]
  refine (shapeCast_apply _ shapeCasts_S8x128_S1x8x128 (ix3 0 0 0) (ix2 0 0) ?_).trans ?_
  · rw [Shape.rowMajor_val_two, Shape.rowMajor_val_three]; rfl
  refine (addf_apply _ _ _).trans ?_
  rw [select_apply, originMask_origin, select_one, broadcast_apply, bodyTotal_eq]
  refine congrArg (· + tileTotal x0 x1) ?_
  refine shapeCast_apply acc shapeCasts_S1x8x128_S8x128 (ix2 0 0) (ix3 0 0 0) ?_
  rw [Shape.rowMajor_val_two, Shape.rowMajor_val_three]; rfl

/-- The block the first point of a row of the grid stores first: all zeros. -/
theorem pay1_apply (j : S1x8x128.Idx) : k0_pay1 (F := Ideal) j = 0 := by
  show Ideal.ofBits .f32 0x00000000#32 = 0
  exact Ideal.ofBits_zero_f32

end Cert.KernelIdeal.TileValue

end
-- ==== Proof.Accum.lean ====
/-
  The accumulator across the grid. The 16 grid points are two rows of 8; each row of the grid owns one [1, 8, 128]
  output block, zeroed at the row's first point and then increased, at every point, by that point's tile total in
  entry (0, 0, 0). So after point n the block's entry (0, 0, 0) is the sum of the tile totals of the points of n's row
  up to and including n: the points 8·(n / 8), …, n.
-/
import proofs.«112659_j23021024706837_2_alg».proof.Proof.Gen.KernelIdeal.Frame
import proofs.«112659_j23021024706837_2_alg».proof.Proof.TileValue
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.TileValue Idealize.ShloMosaic.ValueIdx

theorem hz3 : (![0, 0, 0] : Fin 3 → Nat) = fun _ => 0 := funext fun a => by fin_cases a <;> rfl

section AnyValues

variable {F : FTy → Type} [FloatOps F]

/-- A point that is not the first of its row: the body leaves, in the output's staging buffer holding `xo`, the one
    block it stores, computed from the two input blocks and `xo`. -/
theorem out_B (c : Dev nD) (i : grid0.Coords) (a2 : Memref sig .tc .vmem S512x25x100 .f32) (h2 : a2.IsWhole)
    (a3 : Memref sig .tc .vmem S512x25x100 .f32) (h3 : a3.IsWhole) (a4 : Memref sig .tc .vmem S1x8x128 .f32) (h4 : a4.IsWhole)
    (hc : ¬cond0_0 i) (x0 x1 : Vec F S512x25x100 .f32) (xo : Vec F S1x8x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz3]
  simp only [View.readAt_eq_ld, h2.read_unread, h3.read_unread, h4.read_unread, View.ld_unit_zero (S := S512x25x100) hz3,
    View.ld_unit_zero (S := S1x8x128) hz3]

/-- The first point of a row: the body stores the zero block, reads it back, and leaves the block computed from the two
    input blocks and that zero block. -/
theorem out_A (c : Dev nD) (i : grid0.Coords) (a2 : Memref sig .tc .vmem S512x25x100 .f32) (h2 : a2.IsWhole)
    (a3 : Memref sig .tc .vmem S512x25x100 .f32) (h3 : a3.IsWhole) (a4 : Memref sig .tc .vmem S1x8x128 .f32) (h4 : a4.IsWhole)
    (hc : cond0_0 i) (x0 x1 : Vec F S512x25x100 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, View.ld_unit_zero (S := S512x25x100) hz3,
    View.ld_unit_zero (S := S1x8x128) hz3]

end AnyValues

variable (m : (ℓ : Loc nD τ sig) → Buf (Elt Ideal) ℓ)

/-- The first input's block at point `s`, as a [512, 25, 100] block of extended reals. -/
abbrev blkX (c : Dev nD) (s : Fin cfg0.N) : Vec Ideal S512x25x100 .f32 := iblk m c 0 s
/-- The second input's block at point `s`. -/
abbrev blkY (c : Dev nD) (s : Fin cfg0.N) : Vec Ideal S512x25x100 .f32 := iblk m c 1 s

/-- The tile total of the point numbered `s` (0 for a number past the grid). -/
def pointTotal (c : Dev nD) (s : ℕ) : EReal :=
  if h : s < cfg0.N then tileTotal (blkX m c ⟨s, h⟩) (blkY m c ⟨s, h⟩) else 0

theorem pointTotal_of_lt (c : Dev nD) (s : ℕ) (h : s < cfg0.N) :
    pointTotal m c s = tileTotal (blkX m c ⟨s, h⟩) (blkY m c ⟨s, h⟩) := dif_pos h

/-- After point `n`, entry (0, 0, 0) of the output block is the sum of the tile totals of the points of `n`'s row of
    the grid up to `n`. By induction on the point: a row's first point starts from zero, any other adds to what the
    point before left. -/
theorem origin_eq (c : Dev nD) (n : ℕ) : ∀ (h : n < cfg0.N),
    outsAt0 m c n h (ix3 0 0 0) = ∑ s ∈ Finset.Ico (n / 8 * 8) (n + 1), pointTotal m c s := by
  induction n using Nat.strong_induction_on with
  | _ n ih =>
    intro h
    by_cases h0 : n % 8 = 0
    · have e : outsAt0 m c n h = k0_pay2 (blkX m c ⟨n, h⟩) (blkY m c ⟨n, h⟩) (k0_pay1 (F := Ideal)) :=
        (outsAt0_A m c ⟨n, h⟩ h0).trans (out_A ..)
      rw [e]
      refine (pay2_origin _ _ _).trans ?_
      rw [pay1_apply, zero_add, show n / 8 * 8 = n from by omega, Nat.Ico_succ_singleton, Finset.sum_singleton,
        pointTotal_of_lt m c n h]
    · have hp : n - 1 < cfg0.N := Nat.lt_of_le_of_lt (Nat.sub_le _ _) h
      have e : outsAt0 m c n h = k0_pay2 (blkX m c ⟨n, h⟩) (blkY m c ⟨n, h⟩) (outsAt0 m c (n - 1) hp) :=
        (outsAt0_B m c ⟨n, h⟩ h0).trans (out_B ..)
      rw [e]
      refine (pay2_origin _ _ _).trans ?_
      rw [ih (n - 1) (by omega) hp, show (n - 1) / 8 * 8 = n / 8 * 8 from by omega, show n - 1 + 1 = n from by omega,
        Finset.sum_Ico_succ_top (show n / 8 * 8 ≤ n from by omega), pointTotal_of_lt m c n h]

end Cert.KernelIdeal.Accum

end
-- ==== Proof.OutArray.lean ====
/-
  The kernel's output array [2, 8, 128] after the run. Block q of it (one per grid row) is written back once, after the
  last point 8·q + 7 of grid row q, with what the accumulator holds then. So the array is, block by block, the
  accumulator after the row's last point; its entry (q, 0, 0) is the sum of the eight tile totals of grid row q.
-/
import proofs.«112659_j23021024706837_2_alg».proof.Proof.Accum

noncomputable section

open Idealize.ShloMosaic Idealize.ShloMosaic.TcCoe Idealize.SL.Sem
open Idealize.ShloMosaic.Pipeline (Dat)

namespace Cert.KernelIdeal.OutArray

open Cert.KernelIdeal Cert.KernelIdeal.Gen Cert.KernelIdeal.TileValue Cert.KernelIdeal.Accum Idealize.ShloMosaic.ValueIdx

variable (m : (ℓ : Loc nD τ sig) → Buf (Elt Ideal) ℓ)

/-- The accumulator block after a point depends on the point's number only, and an entry on its index only. -/
theorem outsAt0_apply_congr (c : Dev nD) {n n' : ℕ} (e : n = n') (h : n < cfg0.N) (h' : n' < cfg0.N)
    {j j' : S1x8x128.Idx} (ej : j = j') : outsAt0 m c n h j = outsAt0 m c n' h' j' := by
  subst e; subst ej; rfl

/-- The output window's block index at point t is (t / 8, 0, 0): decided over the grid. -/
theorem idx_facts : ∀ t : Fin cfg0.N, win0_2.index t (0 : Fin 3) = t.val / 8 ∧ win0_2.index t (1 : Fin 3) = 0
    ∧ win0_2.index t (2 : Fin 3) = 0 :=
  (by decide +kernel : ∀ t : Fin grid0.N, win0_2.index t (0 : Fin 3) = t.val / 8 ∧ win0_2.index t (1 : Fin 3) = 0
    ∧ win0_2.index t (2 : Fin 3) = 0)

theorem last_lt (q : ℕ) (hq : q < 2) : 8 * q + 7 < cfg0.N := by
  rw [show cfg0.N = 16 from N_0]; omega

/-- The output array: entry (q, a, b) is entry (0, a, b) of the accumulator block after point 8·q + 7. -/
def outFun (c : Dev nD) : Vec Ideal S2x8x128 .f32 := fun i =>
  outsAt0 m c (8 * (i 0).val + 7) (last_lt _ (i 0).isLt) (ix3 0 (i 1) (i 2))

/-- The same, as contents of the output's buffer. -/
abbrev outArr (c : Dev nD) : Buf (Elt Ideal) ((c : Thread nD τ).loc main_v2) := outFun m c

/-- What a write-back writes is the block of `outFun` it lands on. -/
theorem flushed_eq (c : Dev nD) (t : Fin cfg0.N) (hf : (cfg0.win 2).flush t = true) :
    (dats m 0 c).flushed 2 t = ((cfg0.win 2).blk t).view.read (Elt Ideal) (outArr m c) := by
  have hN : t.val < 16 := lt_of_lt_of_eq t.isLt (show cfg0.N = 16 from N_0)
  have h7 : t.val % 8 = 7 := (flush0_2 t).mp hf
  obtain ⟨e0, e1, e2⟩ := idx_facts t
  show (cfg0.win 2).cut (grid0.coords t) ((dats m 0 c).after 2 t) = _
  rw [after0_2]
  funext j
  show outsAt0 m c t.val t.isLt j = outFun m c (((cfg0.win 2).blk t).view.emb j)
  unfold outFun
  have hj0 : (j 0).val < 1 := (j 0).isLt
  have k0 : ((((cfg0.win 2).blk t).view.emb j) 0).val = t.val / 8 := by
    show win0_2.index t (0 : Fin 3) * 1 + 1 * (j 0).val = _
    omega
  refine outsAt0_apply_congr m c (by rw [k0]; omega) _ _ ?_
  funext a
  apply Fin.ext
  match a with
  | ⟨0, _⟩ => show (j 0).val = 0; omega
  | ⟨1, _⟩ => show (j 1).val = win0_2.index t (1 : Fin 3) * 8 + 1 * (j 1).val; omega
  | ⟨2, _⟩ => show (j 2).val = win0_2.index t (2 : Fin 3) * 128 + 1 * (j 2).val; omega

/-- Every entry of the array is in the block some write-back lands on: entry (q, a, b) in that of point 8·q + 7. -/
theorem cover (i : S2x8x128.Idx) :
    ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 128 := (i 2).isLt
  obtain ⟨t, ht⟩ : ∃ t : Fin cfg0.N, t.val = 8 * (i 0).val + 7 := ⟨⟨8 * (i 0).val + 7, last_lt _ h0⟩, rfl⟩
  refine ⟨t, (flush0_2 t).mpr (by omega), ?_⟩
  obtain ⟨e0, e1, e2⟩ := idx_facts t
  show i ∈ ((View.whole main_v2).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 8 ≤ (i 1).val ∧ (i 1).val < win0_2.index t (1 : Fin 3) * 8 + 8
    omega
  | ⟨2, _⟩ =>
    show win0_2.index t (2 : Fin 3) * 128 ≤ (i 2).val ∧ (i 2).val < win0_2.index t (2 : Fin 3) * 128 + 128
    omega

/-- So the output array after the run is `outFun`. -/
theorem final (c : Dev nD) : (dats m 0 c).arrAt 2 cfg0.N = outArr m c :=
  (dats m 0 c).arrAt_eq_of_cover 2 (outArr m c) (flushed_eq m c) (cover)

/-- Entry (q, 0, 0) of the output array: the eight tile totals of grid row q. -/
theorem outFun_origin (c : Dev nD) (q : Fin 2) :
    outFun m c (ix3 q 0 0) = ∑ t : Fin 8, pointTotal m c (q.val * 8 + t.val) := by
  have hq : q.val < 2 := q.isLt
  show outsAt0 m c (8 * q.val + 7) _ (ix3 0 0 0) = _
  rw [origin_eq, show (8 * q.val + 7) / 8 * 8 = q.val * 8 from by omega,
    show 8 * q.val + 7 + 1 = q.val * 8 + 8 from by omega, Finset.sum_Ico_eq_sum_range, Nat.add_sub_cancel_left,
    Finset.sum_range]

end Cert.KernelIdeal.OutArray

end
-- ==== Proof.LibERealSum.lean ====
/-
  Finite sums of extended reals that are all real numbers: the coercion from ℝ commutes with a finite sum, sums,
  products, differences and scalings of real-valued terms are real-valued, and over real-valued terms the laws that
  fail at the infinities (scaling a sum term by term, splitting a sum of differences) hold. A value proof whose two
  sides differ by such a law first shows its terms real (from finite inputs) and then cites these.
-/
import Idealize.ShloMosaic.PureOps.Ideal

noncomputable section

namespace Cert.LibERealSum

open Finset

/-- The coercion ℝ → EReal commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
abbrev IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.neg {a : EReal} (ha : IsReal a) : IsReal (-a) := by
  obtain ⟨x, rfl⟩ := ha; exact ⟨-x, (EReal.coe_neg x).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩

/-- A finite sum of real-valued terms is real-valued. -/
theorem IsReal.sum {ι : Type*} (s : Finset ι) (g : ι → EReal) (h : ∀ i ∈ s, IsReal (g i)) : IsReal (∑ i ∈ s, g i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- Real witnesses for a family of real-valued terms. -/
theorem exists_real_fun {ι : Type*} (s : Finset ι) (g : ι → EReal) (h : ∀ i ∈ s, IsReal (g i)) :
    ∃ f : ι → ℝ, ∀ i ∈ s, g i = (f i : EReal) := by
  have h' : ∀ i ∈ s, ∃ r : ℝ, g i = (r : EReal) := h
  choose! f hf using h'
  exact ⟨f, hf⟩

/-- Over real-valued terms, scaling a finite sum by a real scales it term by term. -/
theorem sum_mul_real {ι : Type*} (s : Finset ι) (g : ι → EReal) (h : ∀ i ∈ s, IsReal (g i)) (c : ℝ) :
    (∑ i ∈ s, g i) * (c : EReal) = ∑ i ∈ s, g i * (c : EReal) := by
  obtain ⟨f, hf⟩ := exists_real_fun s g h
  have e1 : ∑ i ∈ s, g i = ∑ i ∈ s, (f i : EReal) := Finset.sum_congr rfl hf
  have e2 : ∑ i ∈ s, g i * (c : EReal) = ∑ i ∈ s, ((f i * c : ℝ) : EReal) :=
    Finset.sum_congr rfl fun i hi => by rw [hf i hi, EReal.coe_mul]
  rw [e1, e2, ← coe_sum, ← coe_sum, ← EReal.coe_mul, Finset.sum_mul]

/-- Over real-valued terms, a finite sum of differences is the difference of the sums. -/
theorem sum_sub_real {ι : Type*} (s : Finset ι) (g k : ι → EReal) (hg : ∀ i ∈ s, IsReal (g i)) (hk : ∀ i ∈ s, IsReal (k i)) :
    ∑ i ∈ s, (g i - k i) = (∑ i ∈ s, g i) - ∑ i ∈ s, k i := by
  obtain ⟨f, hf⟩ := exists_real_fun s g hg
  obtain ⟨e, he⟩ := exists_real_fun s k hk
  have e1 : ∑ i ∈ s, g i = ∑ i ∈ s, (f i : EReal) := Finset.sum_congr rfl hf
  have e2 : ∑ i ∈ s, k i = ∑ i ∈ s, (e i : EReal) := Finset.sum_congr rfl he
  have e3 : ∑ i ∈ s, (g i - k i) = ∑ i ∈ s, ((f i - e i : ℝ) : EReal) :=
    Finset.sum_congr rfl fun i hi => by rw [hf i hi, he i hi, EReal.coe_sub]
  rw [e1, e2, e3, ← coe_sum, ← coe_sum, ← coe_sum, ← EReal.coe_sub, Finset.sum_sub_distrib]

open Idealize.ShloMosaic in
/-- A real number divided by a nonzero real (the programs' division at the extended reals) is a real number. -/
theorem IsReal.div {a : EReal} (ha : IsReal a) {c : ℝ} (hc : c ≠ 0) : IsReal (Ideal.div a (c : EReal)) := by
  rw [Ideal.div_coe hc]
  exact ha.mul (IsReal.coe _)

open Idealize.ShloMosaic in
/-- Over real-valued terms, dividing a finite sum by a nonzero real divides it term by term: a mean of sums is the
    sum of the means. -/
theorem sum_div_real {ι : Type*} (s : Finset ι) (g : ι → EReal) (h : ∀ i ∈ s, IsReal (g i)) {c : ℝ} (hc : c ≠ 0) :
    Ideal.div (∑ i ∈ s, g i) (c : EReal) = ∑ i ∈ s, Ideal.div (g i) (c : EReal) := by
  rw [Ideal.div_coe hc]
  simp only [Ideal.div_coe hc]
  exact sum_mul_real s g h (1 / c)

end Cert.LibERealSum

end
-- ==== Proof.LibTileSum.lean ====
/-
  A sum over an axis of extent T·B taken tile by tile: the sum over all n < T·B of f n is the sum over the tiles t < T
  of the sum over the positions b < B inside the tile of f (t·B + b). A kernel that walks an axis in blocks and
  accumulates per block computes the right side; a whole-array reduction computes the left. In any commutative
  monoid (at the extended reals no finiteness is needed: only the order of addition changes).
-/
import Mathlib.Algebra.BigOperators.Fin
import Mathlib.Logic.Equiv.Fin.Basic

namespace Cert.LibTileSum

open Finset

/-- Position b of tile t on an axis of T tiles of B positions. -/
def tileIdx {T B : Nat} (t : Fin T) (b : Fin B) : Fin (T * B) :=
  ⟨t.val * B + b.val, by
    have ht := t.isLt; have hb := b.isLt
    have h0 : (t.val + 1) * B = t.val * B + B := Nat.succ_mul t.val B
    have h1 : t.val * B + b.val < (t.val + 1) * B := by rw [h0]; omega
    exact lt_of_lt_of_le h1 (Nat.mul_le_mul_right B ht)⟩

@[simp] theorem tileIdx_val {T B : Nat} (t : Fin T) (b : Fin B) : (tileIdx t b).val = t.val * B + b.val := rfl

/-- The sum over the whole axis is the sum over tiles of the sums inside each tile. -/
theorem sum_tiles {M : Type*} [AddCommMonoid M] {T B : Nat} (f : Fin (T * B) → M) :
    ∑ n : Fin (T * B), f n = ∑ t : Fin T, ∑ b : Fin B, f (tileIdx t b) := by
  rw [← Equiv.sum_comp (finProdFinEquiv (m := T) (n := B)) f, Fintype.sum_prod_type]
  refine Finset.sum_congr rfl fun t _ => Finset.sum_congr rfl fun b _ => ?_
  congr 1
  apply Fin.ext
  show b.val + B * t.val = t.val * B + b.val
  rw [Nat.mul_comm B t.val, Nat.add_comm]

end Cert.LibTileSum
-- ==== Proof.Spec.lean ====
/-
  What the two programs compute, as functions of the two inputs already reshaped to [8192, 25, 100] (8192 rows of 25
  chunks of 100 entries), and why the two agree.

  Write a(R, c) and b(R, c) for the sums of chunk c of row R of the first and of the second input.
  The kernel walks the rows in 16 tiles of 512, two grid rows of 8 tiles each, adds up (a − b)² over a tile's rows and
  chunks, adds the tile totals up, and divides once by 250000 = 100 · 100 · 25.
  The reference divides each chunk sum by 100 first, squares the difference of the two means, averages the 25 squares
  of a row (a division by 25) and adds up the 8192 row averages.
  Over real numbers (a/100 − b/100)² = (a − b)²/10000, a sum of quotients by one number is the quotient of the sum, and a
  sum over 8192 = 16 · 512 rows is the sum over the tiles of the sums inside each tile; so the two are equal. These laws
  fail at infinite values, which is why the entries are required to be real numbers.
-/
import Idealize.ShloMosaic.PureOps.Ideal
import Idealize.ShloMosaic.PureOps.Ideal.Laws
import Idealize.ShloMosaic.Lib.ValueIdx
import proofs.«112659_j23021024706837_2_alg».proof.Proof.LibERealSum
import proofs.«112659_j23021024706837_2_alg».proof.Proof.LibTileSum

noncomputable section

namespace Cert.LossSpec

open Idealize.ShloMosaic Idealize.ShloMosaic.ValueIdx Finset

/-- Row `r` of tile `n`, among the 8192 rows: row 512·n + r. -/
abbrev rowIx (n : Fin 16) (r : Fin 512) : Fin 8192 := Cert.LibTileSum.tileIdx (T := 16) (B := 512) n r
/-- Tile `t` of grid row `q`, among the 16 tiles: tile 8·q + t. -/
abbrev ptIx (q : Fin 2) (t : Fin 8) : Fin 16 := Cert.LibTileSum.tileIdx (T := 2) (B := 8) q t

/-- The f32 words of 100, 25 and 250000 are those numbers. -/
theorem ofBits_100 : Ideal.ofBits .f32 0x42C80000#32 = ((100 : ℝ) : EReal) := by
  simp [Ideal.ofBits, Ideal.ieee, -EReal.coe_mul]; norm_num
theorem ofBits_25 : Ideal.ofBits .f32 0x41C80000#32 = ((25 : ℝ) : EReal) := by
  simp [Ideal.ofBits, Ideal.ieee, -EReal.coe_mul]; norm_num
theorem ofBits_250000 : Ideal.ofBits .f32 0x48742400#32 = ((250000 : ℝ) : EReal) := by
  simp [Ideal.ofBits, Ideal.ieee, -EReal.coe_mul]; norm_num

variable (X Y : (⟨3, ![8192, 25, 100]⟩ : Shape).Idx → EReal)

/-- The sum of chunk `c` of row `R`. -/
def chunkSum (R : Fin 8192) (c : Fin 25) : EReal := ∑ k : Fin 100, X (ix3 R c k)

/-- The square of the difference of the two inputs' chunk sums. -/
def sqDiff (R : Fin 8192) (c : Fin 25) : EReal :=
  (chunkSum X R c - chunkSum Y R c) * (chunkSum X R c - chunkSum Y R c)

/-- A tile's total: the squares over its 512 rows and their 25 chunks. -/
def tileTot (n : Fin 16) : EReal := ∑ r : Fin 512, ∑ c : Fin 25, sqDiff X Y (rowIx n r) c

/-- The kernel's result: from zero, the tile totals of the two grid rows added up, divided by 250000. -/
def kernelSpec : EReal :=
  Ideal.div (Ideal.ofBits .f32 0x00000000#32 + ∑ q : Fin 2, ∑ t : Fin 8, tileTot X Y (ptIx q t))
    (Ideal.ofBits .f32 0x48742400#32)

/-- A chunk's mean as the reference takes it: from zero, the chunk's sum, divided by 100. -/
def chunkMean (R : Fin 8192) (c : Fin 25) : EReal :=
  Ideal.div (Ideal.ofBits .f32 0x00000000#32 + chunkSum X R c) (Ideal.ofBits .f32 0x42C80000#32)

/-- The reference's result: from zero, over the rows, the average over the 25 chunks of the squared difference of the
    two means. -/
def refSpec : EReal :=
  Ideal.ofBits .f32 0x00000000#32 + ∑ R : Fin 8192,
    Ideal.div (Ideal.ofBits .f32 0x00000000#32 + ∑ c : Fin 25,
        (chunkMean X R c - chunkMean Y R c) * (chunkMean X R c - chunkMean Y R c))
      (Ideal.ofBits .f32 0x41C80000#32)

/-- On inputs whose entries are all real numbers the two results are equal. -/
theorem spec_eq (hX : ∀ i, ∃ r : ℝ, X i = (r : EReal)) (hY : ∀ i, ∃ r : ℝ, Y i = (r : EReal)) :
    kernelSpec X Y = refSpec X Y := by
  choose x hx using hX
  choose y hy using hY
  obtain rfl : X = fun i => (x i : EReal) := funext hx
  obtain rfl : Y = fun i => (y i : EReal) := funext hy
  -- the chunk sums are real numbers
  have ha : ∀ R c, chunkSum (fun i => (x i : EReal)) R c = ((∑ k : Fin 100, x (ix3 R c k) : ℝ) : EReal) :=
    fun R c => (Cert.LibERealSum.coe_sum _ _).symm
  have hb : ∀ R c, chunkSum (fun i => (y i : EReal)) R c = ((∑ k : Fin 100, y (ix3 R c k) : ℝ) : EReal) :=
    fun R c => (Cert.LibERealSum.coe_sum _ _).symm
  generalize hA : (fun (R : Fin 8192) (c : Fin 25) => ∑ k : Fin 100, x (ix3 R c k)) = a at *
  generalize hB : (fun (R : Fin 8192) (c : Fin 25) => ∑ k : Fin 100, y (ix3 R c k)) = b at *
  have ha' : ∀ R c, chunkSum (fun i => (x i : EReal)) R c = ((a R c : ℝ) : EReal) := fun R c => by rw [ha, ← hA]
  have hb' : ∀ R c, chunkSum (fun i => (y i : EReal)) R c = ((b R c : ℝ) : EReal) := fun R c => by rw [hb, ← hB]
  -- both results are real numbers
  have hk : kernelSpec (fun i => (x i : EReal)) (fun i => (y i : EReal))
      = (((∑ q : Fin 2, ∑ t : Fin 8, ∑ r : Fin 512, ∑ c : Fin 25,
            (a (rowIx (ptIx q t) r) c - b (rowIx (ptIx q t) r) c) * (a (rowIx (ptIx q t) r) c - b (rowIx (ptIx q t) r) c))
          * (1 / 250000) : ℝ) : EReal) := by
    unfold kernelSpec tileTot sqDiff
    simp only [ha', hb', Ideal.ofBits_zero_f32, ofBits_250000, zero_add,
      Ideal.div_coe (by norm_num : (250000 : ℝ) ≠ 0), ← EReal.coe_sub, ← EReal.coe_mul, ← Cert.LibERealSum.coe_sum]
  have hr : refSpec (fun i => (x i : EReal)) (fun i => (y i : EReal))
      = ((∑ R : Fin 8192, (∑ c : Fin 25,
            (a R c * (1 / 100) - b R c * (1 / 100)) * (a R c * (1 / 100) - b R c * (1 / 100))) * (1 / 25) : ℝ) : EReal) := by
    unfold refSpec chunkMean
    simp only [ha', hb', Ideal.ofBits_zero_f32, ofBits_100, ofBits_25, zero_add,
      Ideal.div_coe (by norm_num : (100 : ℝ) ≠ 0), Ideal.div_coe (by norm_num : (25 : ℝ) ≠ 0),
      ← EReal.coe_sub, ← EReal.coe_mul, ← Cert.LibERealSum.coe_sum]
  rw [hk, hr]
  congr 1
  -- over the reals: the rows tile by tile, the tiles grid row by grid row, the constant factors moved out
  have e1 := Cert.LibTileSum.sum_tiles (T := 16) (B := 512) (M := ℝ) (fun R : Fin 8192 => (∑ c : Fin 25,
            (a R c * (1 / 100) - b R c * (1 / 100)) * (a R c * (1 / 100) - b R c * (1 / 100))) * (1 / 25))
  have e2 := Cert.LibTileSum.sum_tiles (T := 2) (B := 8) (M := ℝ) (fun n : Fin 16 => ∑ r : Fin 512, (∑ c : Fin 25,
            (a (rowIx n r) c * (1 / 100) - b (rowIx n r) c * (1 / 100)) * (a (rowIx n r) c * (1 / 100) - b (rowIx n r) c * (1 / 100))) * (1 / 25))
  refine Eq.trans ?_ (e1.trans e2).symm
  rw [Finset.sum_mul]
  refine Finset.sum_congr rfl fun q _ => ?_
  rw [Finset.sum_mul]
  refine Finset.sum_congr rfl fun t _ => ?_
  rw [Finset.sum_mul]
  refine Finset.sum_congr rfl fun r _ => ?_
  rw [Finset.sum_mul, Finset.sum_mul]
  refine Finset.sum_congr rfl fun c _ => ?_
  ring

end Cert.LossSpec

end
-- ==== Proof.LibVecIdx.lean ====
/-
  A rank-1 index set is its one coordinate's range: the indices of a vector [n] correspond to the numbers below n, and a
  sum over the vector's indices is the sum over its coordinate. (The rank-2 twin is the library's `sum_idx2`.)
-/
import Idealize.ShloMosaic.Lib.ValueIdx

namespace Cert.LibVecIdx

open Idealize.ShloMosaic Idealize.ShloMosaic.ValueIdx

/-- The numbers below `n` are the indices of a vector of `n` entries. -/
def idxEquiv1 {n : Nat} : Fin n ≃ (⟨1, ![n]⟩ : Shape).Idx where
  toFun := ix1
  invFun j := j 0
  left_inv _ := rfl
  right_inv j := (eq_ix1 j).symm

/-- A sum over a vector's indices is the sum over its coordinate. -/
theorem sum_idx1 {M : Type*} [AddCommMonoid M] {n : Nat} (f : (⟨1, ![n]⟩ : Shape).Idx → M) :
    ∑ j, f j = ∑ a : Fin n, f (ix1 a) :=
  (Equiv.sum_comp (idxEquiv1 (n := n)) f).symm

end Cert.LibVecIdx
-- ==== Proof.KernelValue.lean ====
/-
  The kernel's result. Before the region the two inputs are reshaped to [8192, 25, 100]; the block of rows a grid point
  reads is rows 512·s, …, 512·s + 511 of the reshaped input, s the point's number, so the point's tile total is the
  specification's tile total of tile s. After the region the program takes entries (0, 0, 0) and (1, 0, 0) of the output
  array — the two grid rows' sums of tile totals —, adds them up from zero and divides by 250000: the specification's
  kernel-side value of the two reshaped inputs.
-/
import proofs.«112659_j23021024706837_2_alg».proof.Proof.OutArray
import proofs.«112659_j23021024706837_2_alg».proof.Proof.Spec
import proofs.«112659_j23021024706837_2_alg».proof.Proof.LibVecIdx
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.TileValue Cert.KernelIdeal.Accum Cert.KernelIdeal.OutArray
open Idealize.ShloMosaic.ValueIdx Cert.LossSpec

variable (m : (ℓ : Loc nD τ sig) → Buf (Elt Ideal) ℓ) (ρ : Dev nD → PrngReg)

/-- An input reshaped to [8192, 25, 100], as a function of the input. -/
abbrev reshaped (x : Vec Ideal S16x512x50x50 .f32) : Vec Ideal S8192x25x100 .f32 :=
  shapeCast S8192x25x100 x shapeCasts_S16x512x50x50_S8192x25x100

/-- The region finds the first input reshaped … -/
theorem inX_eq (c : Dev nD) : (V m c main_v0 : S8192x25x100.Idx → EReal)
    = reshaped (m ((c : Thread nD τ).loc main_arg0)) := by
  show StableHlo.after hostOps0 (fun b => m (c, b)) (Proc.devRef .tc main_v0) = _
  after_results
  rfl

/-- … and the second. -/
theorem inY_eq (c : Dev nD) : (V m c main_v1 : S8192x25x100.Idx → EReal)
    = reshaped (m ((c : Thread nD τ).loc main_arg1)) := by
  show StableHlo.after hostOps0 (fun b => m (c, b)) (Proc.devRef .tc main_v1) = _
  after_results
  rfl

/-- The input windows' block index at point t is (t, 0, 0): decided over the grid. -/
theorem in_idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0)

/-- Entry (r, ch, k) of the first input's block at point n is entry (512·n + r, ch, k) of the reshaped input. -/
theorem blkX_apply (c : Dev nD) (n : Fin 16) (h : n.val < cfg0.N) (r : Fin 512) (ch : Fin 25) (k : Fin 100) :
    blkX m c ⟨n.val, h⟩ (ix3 r ch k) = (V m c main_v0 : S8192x25x100.Idx → EReal) (ix3 (rowIx n r) ch k) := by
  obtain ⟨e0, e1, e2, -, -, -⟩ := in_idx_facts ⟨n.val, h⟩
  have e0 : win0_0.index ⟨n.val, h⟩ (0 : Fin 3) = n.val := e0
  show iblk m c 0 ⟨n.val, h⟩ (ix3 r ch k) = _
  unfold iblk
  rw [View.read_apply]
  show V m c main_v0 _ = V m c main_v0 _
  congr 1
  funext a
  apply Fin.ext
  match a with
  | ⟨0, _⟩ => show win0_0.index ⟨n.val, h⟩ (0 : Fin 3) * 512 + 1 * r.val = n.val * 512 + r.val; rw [e0]; omega
  | ⟨1, _⟩ => show win0_0.index ⟨n.val, h⟩ (1 : Fin 3) * 25 + 1 * ch.val = ch.val; rw [e1]; omega
  | ⟨2, _⟩ => show win0_0.index ⟨n.val, h⟩ (2 : Fin 3) * 100 + 1 * k.val = k.val; rw [e2]; omega

/-- The same for the second input. -/
theorem blkY_apply (c : Dev nD) (n : Fin 16) (h : n.val < cfg0.N) (r : Fin 512) (ch : Fin 25) (k : Fin 100) :
    blkY m c ⟨n.val, h⟩ (ix3 r ch k) = (V m c main_v1 : S8192x25x100.Idx → EReal) (ix3 (rowIx n r) ch k) := by
  obtain ⟨-, -, -, e0, e1, e2⟩ := in_idx_facts ⟨n.val, h⟩
  have e0 : win0_1.index ⟨n.val, h⟩ (0 : Fin 3) = n.val := e0
  show iblk m c 1 ⟨n.val, h⟩ (ix3 r ch k) = _
  unfold iblk
  rw [View.read_apply]
  show V m c main_v1 _ = V m c main_v1 _
  congr 1
  funext a
  apply Fin.ext
  match a with
  | ⟨0, _⟩ => show win0_1.index ⟨n.val, h⟩ (0 : Fin 3) * 512 + 1 * r.val = n.val * 512 + r.val; rw [e0]; omega
  | ⟨1, _⟩ => show win0_1.index ⟨n.val, h⟩ (1 : Fin 3) * 25 + 1 * ch.val = ch.val; rw [e1]; omega
  | ⟨2, _⟩ => show win0_1.index ⟨n.val, h⟩ (2 : Fin 3) * 100 + 1 * k.val = k.val; rw [e2]; omega

/-- A point's tile total is the specification's tile total of the two reshaped inputs. -/
theorem pointTotal_eq (c : Dev nD) (n : Fin 16) :
    pointTotal m c n.val = tileTot (V m c main_v0 : S8192x25x100.Idx → EReal) (V m c main_v1 : S8192x25x100.Idx → EReal) n := by
  have h : n.val < cfg0.N := by rw [show cfg0.N = 16 from N_0]; exact n.isLt
  rw [pointTotal_of_lt m c _ h]
  unfold tileTotal tileTot
  refine Finset.sum_congr rfl fun r _ => Finset.sum_congr rfl fun ch _ => ?_
  unfold TileValue.sqDiff LossSpec.sqDiff chunkSum
  simp only [blkX_apply m c n h, blkY_apply m c n h]

/-- The program's tail, as a function of the output array: the slice [0:2, 0:1, 0:1], flattened to two entries, added
    up from zero, divided by 250000. -/
def tailOf (A : Vec Ideal S2x8x128 .f32) : Vec Ideal S_ .f32 :=
  Host.divf (F := Ideal)
    (Host.reduceAdd (F := Ideal)
      (shapeCast S2 (extractStridedSlice S2x1x1 ![0, 0, 0] A slices_S2x8x128_S2x1x1_0_0_0) shapeCasts_S2x1x1_S2)
      (constant (F := Ideal) S_ .f32 0x00000000#32) reducesTo_S2_S_d0 h_S_)
    (constant (F := Ideal) S_ .f32 0x48742400#32)

/-- Read at its one index: zero plus the entries (0, 0, 0) and (1, 0, 0), over 250000. -/
theorem tailOf_apply (A : Vec Ideal S2x8x128 .f32) (j : S_.Idx) :
    tailOf A j = Ideal.div (Ideal.ofBits .f32 0x00000000#32 + ∑ q : Fin 2, A (ix3 q 0 0))
      (Ideal.ofBits .f32 0x48742400#32) := by
  unfold tailOf
  generalize hy : shapeCast S2 (extractStridedSlice S2x1x1 ![0, 0, 0] A slices_S2x8x128_S2x1x1_0_0_0)
    shapeCasts_S2x1x1_S2 = y
  have hyq : ∀ q : Fin 2, y (ix1 q) = A (ix3 q 0 0) := by
    intro q
    subst hy
    refine (shapeCast_apply _ shapeCasts_S2x1x1_S2 (ix1 q) (ix3 q 0 0) ?_).trans ?_
    · rw [Shape.rowMajor_val_three, Shape.rowMajor_val_one]
      show (q.val * 1 + 0) * 1 + 0 = q.val
      omega
    · exact extractStridedSlice_apply _ A _ (ix3 q 0 0) (ix3 q 0 0) (fun a => by
        match a with
        | ⟨0, _⟩ => show q.val = 0 + q.val; omega
        | ⟨1, _⟩ => rfl
        | ⟨2, _⟩ => rfl)
  show Ideal.div (Host.reduceAdd (F := Ideal) y (constant (F := Ideal) S_ .f32 0x00000000#32) reducesTo_S2_S_d0 h_S_ j)
    (Ideal.ofBits .f32 0x48742400#32) = _
  simp only [Host.reduceAdd, Ideal.hostReduceAdd_def]
  rw [Ideal.hostReduceAdd_total reducesTo_S2_S_d0 (fun b => b.elim0), Cert.LibVecIdx.sum_idx1]
  simp only [hyq]
  rfl

/-- What the lines after the region leave in the result buffer: the tail of the output array. -/
theorem tail_eq (c : Dev nD) :
    Pipeline.afterTail₀ cfgs (dats m) 0 (V0 m) [hostOps1] c main_v6 = tailOf (outFun m c) := by
  unfold Pipeline.afterTail₀
  show StableHlo.after hostOps1 _ (Proc.devRef .tc main_v6) = _
  after_results
  have e : Pipeline.withArrays (cfgs 0).spec c (V0 m c) (fun w => (dats m 0 c).arrAt w (cfgs 0).N)
      (Proc.devRef .tc main_v2) = outArr m c :=
    (Pipeline.withArrays_arr spec0 launch0.win.arr_inj c _ _ 2).trans (final m c)
  rw [e]
  rfl

/-- The kernel's result is the specification's kernel-side value of the two reshaped inputs. -/
theorem result_eq (c : Dev nD) (j : S_.Idx) :
    tailOf (outFun m c) j
      = kernelSpec (reshaped (m ((c : Thread nD τ).loc main_arg0))) (reshaped (m ((c : Thread nD τ).loc main_arg1))) := by
  rw [tailOf_apply, ← inX_eq, ← inY_eq]
  unfold kernelSpec
  refine congrArg (fun s => Ideal.div (Ideal.ofBits .f32 0x00000000#32 + s) (Ideal.ofBits .f32 0x48742400#32)) ?_
  refine Finset.sum_congr rfl fun q _ => ?_
  rw [outFun_origin]
  refine Finset.sum_congr rfl fun t _ => ?_
  exact pointTotal_eq m c (ptIx q t)

/-- The run, read: the result buffer at the tail of the output array, the two arguments unchanged. -/
theorem run : θ_run defs (onTc (τ := τ) (main (F := Ideal))) ⟨m, fun _ => 0, ρ⟩ fun r => ∀ c : Dev nD,
      r.2.mem ((c : Thread nD τ).loc main_v6) = tailOf (outFun m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v6 (Pipeline.mem_restRefs_of main_v6 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KernelValue

end
-- ==== Proof.RefValue.lean ====
/-
  The reference's result. Its operations, read one at a time at an index, compose to: from zero, the sum over the 8192
  rows of [ from zero, the sum over the 25 chunks of (mean of the first input's chunk − mean of the second's)², divided
  by 25 ], a chunk's mean being [ from zero, the sum of its 100 entries, divided by 100 ] — the specification's
  reference-side value of the two reshaped inputs.
-/
import proofs.«112659_j23021024706837_2_alg».proof.Proof.Gen.ReferenceIdeal.Read
import proofs.«112659_j23021024706837_2_alg».proof.Proof.Spec
import proofs.«112659_j23021024706837_2_alg».proof.Proof.LibVecIdx

noncomputable section

namespace Cert.ReferenceIdeal.RefValue

open Cert.ReferenceIdeal Cert.ReferenceIdeal.Gen Cert.ReferenceIdeal.Read Idealize.ShloMosaic
open Idealize.ShloMosaic.ValueIdx Cert.LossSpec

/-- Chunk k of row R, as the row-wise sum's index function spells it. -/
theorem idx10 (R : Fin 8192) (k : Fin 25) : idx_main_v10 (ix1 R) k = ix2 R k :=
  funext fun a => Fin.ext (by match a with | ⟨0, _⟩ => rfl | ⟨1, _⟩ => rfl)

/-- Entry k of chunk c of row R, as the two chunk sums' index functions spell it. -/
theorem idx2 (R : Fin 8192) (c : Fin 25) (k : Fin 100) : idx_main_v2 (ix2 R c) k = ix3 R c k :=
  funext fun a => Fin.ext (by match a with | ⟨0, _⟩ => rfl | ⟨1, _⟩ => rfl | ⟨2, _⟩ => rfl)
theorem idx5 (R : Fin 8192) (c : Fin 25) (k : Fin 100) : idx_main_v5 (ix2 R c) k = ix3 R c k :=
  funext fun a => Fin.ext (by match a with | ⟨0, _⟩ => rfl | ⟨1, _⟩ => rfl | ⟨2, _⟩ => rfl)

/-- The reference's last stage is the specification's reference-side value of the two reshaped inputs. -/
theorem ref_eq (x0 x1 : (⟨S16x512x50x50, .f32⟩ : BufTy).Contents (Elt Ideal)) (i : S_.Idx) :
    val_main_v13 (F := Ideal) x0 x1 i
      = refSpec (val_main_v0 (F := Ideal) x0 : S8192x25x100.Idx → EReal) (val_main_v1 (F := Ideal) x1 : S8192x25x100.Idx → EReal) := by
  rw [val_main_v13_apply, Cert.LibVecIdx.sum_idx1]
  simp only [val_main_v12_apply, val_main_v11_apply, val_main_v10_apply, val_main_v9_apply, val_main_v8_apply,
    val_main_v7_apply, val_main_v6_apply, val_main_v5_apply, val_main_v4_apply, val_main_v3_apply, val_main_v2_apply,
    val_main_cst_apply, val_main_cst_0_apply, val_main_cst_1_apply, val_main_cst_2_apply, val_main_cst_3_apply,
    val_main_cst_4_apply, val_main_cst_5_apply, idx10, idx2, idx5,
    Ideal.hostDivf_def, Ideal.subf_def, Ideal.mulf_def, Ideal.ofBits_def]
  rfl

end Cert.ReferenceIdeal.RefValue

end
-- ==== Proof.LibFiniteInputs.lean ====
/-
  From the printed precondition "every float input is finite" to "every entry is a real number", at the extended
  reals, for arrays of any shape.

  The precondition prints, per input `x`, as `jnp.all(|x| < +inf)`: the element-wise comparison of `|x|` against the
  f32 infinity word, reduced by `and` over every axis from the constant 1; several inputs are joined by `and`. At the
  extended reals `|a| = max a (-a)` and the infinity word is `⊤`, so the comparison holds at an entry exactly when
  the entry is neither `⊤` nor `⊥`: a real number. The lemmas here are stated over the printed term's shape, generic
  in the array's shape and reduced axes, so that a certificate's own precondition is an instance by unfolding.
-/
import Idealize.ShloMosaic.PureOps.Ideal
import Idealize.ShloMosaic.PureOps.Ideal.Laws
import Idealize.ShloMosaic.Lib.ReduceAll
import Idealize.ShloMosaic.Lib.ValueIdx

noncomputable section

namespace Cert.LibFiniteInputs

open Idealize.ShloMosaic

/-- The rank-0 shape has one index. -/
instance : Subsingleton (⟨0, ![]⟩ : Shape).Idx := ⟨fun a b => funext fun d => d.elim0⟩

/-- The f32 word `0x7F800000` is `+∞` at the extended reals. -/
theorem ofBits_inf_f32 : Ideal.ofBits .f32 0x7F800000#32 = (⊤ : EReal) := by
  simp [Ideal.ofBits, Ideal.ieee]

/-- An extended real whose absolute value `max a (-a)` is below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One entry: the printed comparison `|a| < +inf` coming out 1 says `a` is a real number. -/
theorem real_of_cmp_one (a : Ideal .f32)
    (h : FloatOps.cmpf .olt (FloatOps.absf a) (FloatOps.ofBits (F := Ideal) .f32 0x7F800000#32) = 1#1) :
    ∃ r : ℝ, (a : EReal) = (r : EReal) := by
  have h2 : BitVec.ofBool (decide (max (a : EReal) (-a) < Ideal.ofBits .f32 0x7F800000#32)) = 1#1 := h
  have h' : max (a : EReal) (-a) < Ideal.ofBits .f32 0x7F800000#32 := by
    by_contra hn
    rw [decide_eq_false hn] at h2
    exact absurd h2 (by decide)
  rw [ofBits_inf_f32] at h'
  exact real_of_abs_lt_top a h'

/-- One input: `jnp.all(|x| < +inf)` coming out 1 says every entry of `x` is a real number. -/
theorem all_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr hu ValueIdx.ix0 = 1#1) :
    ∀ i : s.Idx, ∃ r : ℝ, (x i : EReal) = (r : EReal) := by
  intro i
  have h1 := Host.reduce_andi_all _ _ hr hu ValueIdx.ix0 e i
  exact real_of_cmp_one (x i) h1

/-- Two inputs joined by `and`: both arrays hold real numbers throughout. -/
theorem both_real {s : Shape} {axes : List (Fin s.rank)} (x y : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : andi
          (Host.reduce IntOp.andi
            (cmpf .olt (Host.absf x) (broadcastInDim s ![] hb (constant ⟨0, ![]⟩ .f32 0x7F800000#32)))
            (constantI ⟨0, ![]⟩ 1 1#1) hr hu)
          (Host.reduce IntOp.andi
            (cmpf .olt (Host.absf y) (broadcastInDim s ![] hb (constant ⟨0, ![]⟩ .f32 0x7F800000#32)))
            (constantI ⟨0, ![]⟩ 1 1#1) hr hu) = fun _ => 1#1) :
    (∀ i : s.Idx, ∃ r : ℝ, (x i : EReal) = (r : EReal)) ∧ (∀ i : s.Idx, ∃ r : ℝ, (y i : EReal) = (r : EReal)) := by
  have h0 := congrFun e ValueIdx.ix0
  have h1 : IntOp.andi _ _ = 1#1 := h0
  obtain ⟨ex, ey⟩ := IntOp.andi_eq_one.mp h1
  exact ⟨all_real x hb hr hu ex, all_real y hb hr hu ey⟩

end Cert.LibFiniteInputs

end
-- ==== Proof.Finite.lean ====
/-
  From the precondition to real numbers. The precondition says of each of the two inputs that every entry's absolute
  value is below +∞, so every entry is a real number; a reshape only re-indexes, so every entry of a reshaped input is a
  real number too.
-/
import proofs.«112659_j23021024706837_2_alg».proof.Pre_finite_inputs
import proofs.«112659_j23021024706837_2_alg».proof.Proof.Gen.Pre_finite_inputs
import proofs.«112659_j23021024706837_2_alg».proof.Proof.LibFiniteInputs
import Idealize.ShloMosaic.Lib.Pipeline.Value

noncomputable section

namespace Cert.Finite

open Idealize.ShloMosaic

/-- Every entry of a reshape of an array of real numbers is a real number. -/
theorem reshape_real {s t : Shape} (x : s.Idx → EReal) (h : s.ShapeCasts t)
    (hx : ∀ i, ∃ r : ℝ, x i = (r : EReal)) : ∀ j, ∃ r : ℝ, shapeCast t x h j = (r : EReal) := by
  intro j
  unfold shapeCast
  exact hx _

/-- The printed precondition coming out all ones says both inputs hold real numbers throughout. -/
theorem real_of_pre (x y : FVec Ideal Cert.Pre_finite_inputs.S16x512x50x50 .f32)
    (h : Cert.Pre_finite_inputs.fn (F := Ideal) x y = fun _ => 1#1) :
    (∀ i, ∃ r : ℝ, (x i : EReal) = (r : EReal)) ∧ (∀ i, ∃ r : ℝ, (y i : EReal) = (r : EReal)) :=
  Cert.LibFiniteInputs.both_real x y Cert.Pre_finite_inputs.Facts.bcast_S_S16x512x50x50
    Cert.Pre_finite_inputs.Facts.reducesTo_S16x512x50x50_S_d0_1_2_3 Cert.Pre_finite_inputs.Facts.h_S_ h

end Cert.Finite

end
-- ==== Proof.lean ====
/-
  A chunked mean-squared-error loss, kernel against jnp reference, at the extended reals.

  Both programs reshape the two inputs f32[16, 512, 50, 50] to 8192 rows of 25 chunks of 100 entries. Write a(R, c) and
  b(R, c) for the sum of chunk c of row R of the first and of the second input.

  The reference computes  Σ_R ( Σ_c (a(R, c)/100 − b(R, c)/100)² ) / 25.
  The kernel walks the rows in 16 tiles of 512 on a 2 × 8 grid; each grid row owns one [1, 8, 128] output block, zeroed at
  the row's first point, whose entry (0, 0, 0) every point increases by Σ_{r, c} (a − b)² over its tile; after the region
  the program adds the two blocks' entries (0, 0, 0) and divides by 250000 = 100 · 100 · 25.

  Over real numbers the two agree: (a/100 − b/100)² = (a − b)²/10000, the divisions move out of the sums, and the sum
  over the 8192 rows is the sum over the 16 tiles of the sums inside each tile. At infinite entries these laws fail, so
  the precondition (every input entry finite, hence a real number) is used.

  The modules: TileValue (one point's arithmetic), Accum (the accumulator across the grid), OutArray (the output array
  after the run), KernelValue (the input blocks, the program's tail, the kernel's result and run), RefValue (the
  reference's result), Spec (both results as functions of the reshaped inputs, and their equality), Finite (the
  precondition gives real numbers).
-/
import proofs.«112659_j23021024706837_2_alg».proof.Defs
import proofs.«112659_j23021024706837_2_alg».proof.Proof.Gen.Kernel
import proofs.«112659_j23021024706837_2_alg».proof.Proof.Gen.Kernel.Skeleton
import proofs.«112659_j23021024706837_2_alg».proof.Proof.Gen.Kernel.Launch
import proofs.«112659_j23021024706837_2_alg».proof.Proof.Gen.Kernel.Points
import proofs.«112659_j23021024706837_2_alg».proof.Proof.Gen.Kernel.Frame
import proofs.«112659_j23021024706837_2_alg».proof.Proof.Gen.KernelIdeal
import proofs.«112659_j23021024706837_2_alg».proof.Proof.Gen.KernelIdeal.Skeleton
import proofs.«112659_j23021024706837_2_alg».proof.Proof.Gen.KernelIdeal.Launch
import proofs.«112659_j23021024706837_2_alg».proof.Proof.Gen.KernelIdeal.Points
import proofs.«112659_j23021024706837_2_alg».proof.Proof.Gen.KernelIdeal.Frame
import proofs.«112659_j23021024706837_2_alg».proof.Proof.Gen.ReferenceIdeal
import proofs.«112659_j23021024706837_2_alg».proof.Proof.Gen.Pre_finite_inputs
import proofs.«112659_j23021024706837_2_alg».proof.Proof.Gen.ReferenceIdeal.Run
import proofs.«112659_j23021024706837_2_alg».proof.Proof.Gen.ReferenceIdeal.Read
import Idealize.ShloMosaic.Adequacy
import Idealize.ShloMosaic.Init
import proofs.«112659_j23021024706837_2_alg».proof.Proof.KernelValue
import proofs.«112659_j23021024706837_2_alg».proof.Proof.RefValue
import proofs.«112659_j23021024706837_2_alg».proof.Proof.Finite

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree and are finite, the kernel's result (the tail of its output array) and the reference's
    result are the two sides of the specification's equality at the reshaped inputs, whose entries are real numbers. -/
theorem algebraic : Cert.algebraic_KernelIdeal_ReferenceIdeal := by
  intro m ρ m' ρ' hpre hagree
  refine ⟨fun c => Cert.KernelIdeal.KernelValue.tailOf (Cert.KernelIdeal.OutArray.outFun m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  funext j
  refine (Cert.ReferenceIdeal.RefValue.ref_eq _ _ j).trans ?_
  refine Eq.trans ?_ (Cert.KernelIdeal.KernelValue.result_eq m c j).symm
  obtain ⟨hx, hy⟩ := Cert.Finite.real_of_pre _ _ (hpre c)
  exact (Cert.LossSpec.spec_eq _ _ (Cert.Finite.reshape_real _ _ hx) (Cert.Finite.reshape_real _ _ hy)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
